-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S8192x8192 : Shape := ⟨2, ![8192, 8192]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S256x8192 .f32) (main_arg1 : FVec F S8192x8192 .f32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S256x8192 : Shape := ⟨2, ![256, 8192]⟩
abbrev S8192x8192 : Shape := ⟨2, ![8192, 8192]⟩
abbrev S1024x2048 : Shape := ⟨2, ![1024, 2048]⟩
abbrev S256x1024 : Shape := ⟨2, ![256, 1024]⟩
abbrev S256x2048 : Shape := ⟨2, ![256, 2048]⟩
abbrev S256x8192x1 : Shape := ⟨3, ![256, 8192, 1]⟩

abbrev nBuf : Space → Nat
  | .hbm => 5
  | .vmem => 5
  | .smem => 0
  | _ => 0

abbrev bufTy : (tb : Table) → Fin (tcTables nBuf tb) → BufTy
  | .hbm, ⟨0, _⟩ => ⟨S256x8192, .f32⟩
  | .hbm, ⟨1, _⟩ => ⟨S8192x8192, .f32⟩
  | .hbm, ⟨2, _⟩ => ⟨S256x8192, .bf16⟩
  | .hbm, ⟨3, _⟩ => ⟨S256x8192, .f32⟩
  | .hbm, ⟨4, _⟩ => ⟨S256x8192x1, .f32⟩
  | .local _ .vmem, ⟨0, _⟩ => ⟨S256x8192, .bf16⟩
  | .local _ .vmem, ⟨1, _⟩ => ⟨S1024x2048, .f32⟩
  | .local _ .vmem, ⟨2, _⟩ => ⟨S1024x2048, .f32⟩
  | .local _ .vmem, ⟨3, _⟩ => ⟨S256x1024, .f32⟩
  | .local _ .vmem, ⟨4, _⟩ => ⟨S256x1024, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let c0 : Index := 0#32
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  ![0, v5.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  h_S256x2048 : 0 < S256x2048.numel
  shapeCasts_S256x2048_S256x2048 : S256x2048.ShapeCasts S256x2048
  inb_S1024x2048_S1024x2048_0_0 : ∀ a, (![0, 0] : Fin 2 → Nat) a + S1024x2048.size a ≤ S1024x2048.size a
  h_S1024x2048 : 0 < S1024x2048.numel
  shapeCasts_S256x1024_S256x1024 : S256x1024.ShapeCasts S256x1024
  bcast_S256x8192_S256x8192x1_0_1 : S256x8192.BroadcastsInDim S256x8192x1 (![0, 1] : Fin 2 → Fin S256x8192x1.rank)
  dot_S256x2048_S1024x2048_S256x1024_1_1_0_0_n_n_wf : DotDims.WF S256x2048 S1024x2048 S256x1024 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S256x2048.size a ≤ S256x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S256x8192.size a
  hwx0_0 : ∀ i : grid0.Coords, EltTy.bits .bf16 = 32 ∨ (Rect.block (s := S256x8192) S256x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .f32 = 32 ∨ (Rect.block (s := S8192x8192) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x8192.size a
  hwx0_2 : ∀ i : grid0.Coords, EltTy.bits .f32 = 32 ∨ (Rect.block (s := S256x8192) S256x1024.size (cc0_transform_2 i) (hinb0_2 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_v0) S256x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x8192 : Shape := ⟨2, ![256, 8192]⟩
abbrev S8192x8192 : Shape := ⟨2, ![8192, 8192]⟩
abbrev S256x8192x1 : Shape := ⟨3, ![256, 8192, 1]⟩

abbrev nBuf : Space → Nat
  | .hbm => 4
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S8192x8192, .f32⟩
  | .hbm, ⟨2, _⟩ => ⟨S256x8192, .f32⟩
  | .hbm, ⟨3, _⟩ => ⟨S256x8192x1, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bcast_S256x8192_S256x8192x1_0_1 : S256x8192.BroadcastsInDim S256x8192x1 (![0, 1] : Fin 2 → Fin S256x8192x1.rank)
  dot_S256x8192_S8192x8192_S256x8192_1_1_0_0_n_n_wf : DotDims.WF S256x8192 S8192x8192 S256x8192 [1] [1] [0] [0] [] []

variable [Facts₀]

def dot_S256x8192_S8192x8192_S256x8192_1_1_0_0_n_n : DotDims S256x8192 S8192x8192 S256x8192 where
  lhsContracting := [1]
  rhsContracting := [1]
  lhsNonContracting := [0]
  rhsNonContracting := [0]
  lhsBatch := []
  rhsBatch := []
  wf := dot_S256x8192_S8192x8192_S256x8192_1_1_0_0_n_n_wf

class Facts : Prop extends Facts₀ where

variable [Facts]
-- ==== Proof.Pieces.lean ====
import proofs.«116452_j52269751992785_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-!
  WHAT EACH CASE OF THE BODY LEAVES IN THE OUTPUT TILE'S BUFFER, for any float values. The body has two cases. At the
  first point of a column tile it stores the zero tile, reads it back, and stores `zero + A · Bᵀ`; at every later point
  it reads what the point before left and stores `that + A · Bᵀ`. In both the last store covers the whole tile, so the
  buffer ends at that store's value: the body's one arithmetic term, applied to the loaded chunk `A` of `x`, the loaded
  block `B` of `U`, and the tile's previous contents (the zero tile in the first case).
-/

namespace Cert.KernelIdeal.Blocked

open Cert.KernelIdeal Cert.KernelIdeal.Gen

variable {F : FTy → Type} [FloatOps F]

/-- The zero offsets of a whole-buffer access, as a function. -/
theorem hz : (![0, 0] : Fin 2 → Nat) = fun _ => 0 := funext fun a => by fin_cases a <;> rfl

/-- A LATER point of a tile: the buffer held `xo`; the body leaves its arithmetic term of the loaded chunk of `x`, the
    block of `U` and `xo`. -/
theorem out_B (c : Dev nD) (i : grid0.Coords) (a2 : Memref sig .tc .vmem S256x8192 .bf16) (h2 : a2.IsWhole)
    (a3 : Memref sig .tc .vmem S1024x2048 .f32) (h3 : a3.IsWhole) (a4 : Memref sig .tc .vmem S256x1024 .f32) (h4 : a4.IsWhole)
    (hc : ¬cond0_0 i) (x0 : Vec F S256x8192 .bf16) (x1 : Vec F S1024x2048 .f32) (xo : Vec F S256x1024 .f32) :
    out0_B_2 c i a2 h2 a3 h3 a4 h4 hc x0 x1 xo
      = k0_pay2 (View.ld x0 (Rect.unit (s := S256x8192) (k0_off1 i) S256x2048.size (k0_off1_inb i))) x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread,
    View.ld_unit_zero (S := S1024x2048) hz, View.ld_unit_zero (S := S256x1024) hz]

/-- The FIRST point of a tile: the body zeroes the buffer, reads the zero tile back, and leaves its arithmetic term of the
    loaded chunk of `x`, the block of `U` and the zero tile. -/
theorem out_A (c : Dev nD) (i : grid0.Coords) (a2 : Memref sig .tc .vmem S256x8192 .bf16) (h2 : a2.IsWhole)
    (a3 : Memref sig .tc .vmem S1024x2048 .f32) (h3 : a3.IsWhole) (a4 : Memref sig .tc .vmem S256x1024 .f32) (h4 : a4.IsWhole)
    (hc : cond0_0 i) (x0 : Vec F S256x8192 .bf16) (x1 : Vec F S1024x2048 .f32) :
    out0_A_2 c i a2 h2 a3 h3 a4 h4 hc x0 x1
      = k0_pay2 (View.ld x0 (Rect.unit (s := S256x8192) (k0_off1 i) S256x2048.size (k0_off1_inb i))) x1 k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S256x1024) hz, View.readCov_unit_zero (S := S256x1024) _ hz]
  simp only [View.readAt_eq_ld, h2.read_unread, h3.read_unread, View.ld_unit_zero (S := S1024x2048) hz]

end Cert.KernelIdeal.Blocked

end
-- ==== Proof.PayloadAt.lean ====
/-
  THE BODY'S ARITHMETIC AT AN ENTRY, at the ideal values.

  At every grid point the body stores into its 256 × 1024 output tile `acc + A · Bᵀ`, where `acc` is what the tile held,
  `A` the 256 × 2048 chunk of `x` and `B` the 1024 × 2048 block of `U`; the product is taken on the matrix unit into a
  zero accumulator, and a change of float format is the identity on extended reals. Read at entry `(a, j)` this is
  `acc[a, j] + ∑_{k < 2048} A[a, k] · B[j, k]`. At the first point of a tile `acc` is the zero tile.
-/
import proofs.«116452_j52269751992785_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.KernelIdeal.Blocked

open Cert.KernelIdeal Cert.KernelIdeal.Gen

/-- The zero tile reads `0` everywhere. -/
theorem zeroTile_apply (y : S256x1024.Idx) : k0_pay1 (F := Ideal) y = 0 := by
  unfold k0_pay1
  exact Ideal.ofBits_zero_f32

/-- The matrix unit's left operand index at output `i`, contraction place `q`: row `i₀`, … -/
theorem lhs_row (i : S256x1024.Idx) (q : dot_S256x2048_S1024x2048_S256x1024_1_1_0_0_n_n.contr.Idx) : (dot_S256x2048_S1024x2048_S256x1024_1_1_0_0_n_n.lhsIdx i q 0).val = (i 0).val := by
  unfold DotDims.lhsIdx
  rw [dif_neg (show ¬(0 : Fin S256x2048.rank) ∈ dot_S256x2048_S1024x2048_S256x1024_1_1_0_0_n_n.lhsBatch by decide),
    dif_pos (show (0 : Fin S256x2048.rank) ∈ dot_S256x2048_S1024x2048_S256x1024_1_1_0_0_n_n.lhsNonContracting by decide)]
  rfl
/-- … column `q`; -/
theorem lhs_col (i : S256x1024.Idx) (q : dot_S256x2048_S1024x2048_S256x1024_1_1_0_0_n_n.contr.Idx) : (dot_S256x2048_S1024x2048_S256x1024_1_1_0_0_n_n.lhsIdx i q 1).val = (q ⟨0, by decide⟩).val :=
  dot_S256x2048_S1024x2048_S256x1024_1_1_0_0_n_n.lhsIdx_val_of_single rfl i q
/-- the right operand's: row `i₁`, … -/
theorem rhs_row (i : S256x1024.Idx) (q : dot_S256x2048_S1024x2048_S256x1024_1_1_0_0_n_n.contr.Idx) : (dot_S256x2048_S1024x2048_S256x1024_1_1_0_0_n_n.rhsIdx i q 0).val = (i 1).val := by
  unfold DotDims.rhsIdx
  rw [dif_neg (show ¬(0 : Fin S1024x2048.rank) ∈ dot_S256x2048_S1024x2048_S256x1024_1_1_0_0_n_n.rhsBatch by decide),
    dif_pos (show (0 : Fin S1024x2048.rank) ∈ dot_S256x2048_S1024x2048_S256x1024_1_1_0_0_n_n.rhsNonContracting by decide)]
  rfl
/-- … column `q`. -/
theorem rhs_col (i : S256x1024.Idx) (q : dot_S256x2048_S1024x2048_S256x1024_1_1_0_0_n_n.contr.Idx) : (dot_S256x2048_S1024x2048_S256x1024_1_1_0_0_n_n.rhsIdx i q 1).val = (q ⟨0, by decide⟩).val :=
  dot_S256x2048_S1024x2048_S256x1024_1_1_0_0_n_n.rhsIdx_val_of_single rfl i q

/-- The stored tile at entry `(a, j)`: what the tile held there plus the partial product over the chunk's 2048 places. -/
theorem stored_apply (v6 : Vec Ideal S256x2048 .bf16) (v8 : Vec Ideal S1024x2048 .f32) (v10 : Vec Ideal S256x1024 .f32)
    (a : Fin 256) (j : Fin 1024) :
    k0_pay2 (F := Ideal) v6 v8 v10 (ix2 a j) = v10 (ix2 a j) + ∑ k : Fin 2048, v6 (ix2 a k) * v8 (ix2 j k) := by
  unfold k0_pay2
  rw [addf_apply, shapeCast_self, shapeCast_self]
  congr 1
  refine (Ideal.matmul_constant_zero_apply dot_S256x2048_S1024x2048_S256x1024_1_1_0_0_n_n none (φ₁ := .bf16) (φ₂ := .bf16)
    v6 (truncf FTy.bf16 v8 bitsLt_bf16_f32) (ix2 a j)).trans ?_
  rw [← Equiv.sum_comp (contrEquiv1 dot_S256x2048_S1024x2048_S256x1024_1_1_0_0_n_n 2048 rfl rfl).symm]
  refine Finset.sum_congr rfl fun k _ => ?_
  show v6 _ * v8 _ = _
  have hk := contrEquiv1_symm_val dot_S256x2048_S1024x2048_S256x1024_1_1_0_0_n_n 2048 rfl rfl k
  have el : dot_S256x2048_S1024x2048_S256x1024_1_1_0_0_n_n.lhsIdx (ix2 a j) ((contrEquiv1 dot_S256x2048_S1024x2048_S256x1024_1_1_0_0_n_n 2048 rfl rfl).symm k) = ix2 a k :=
    funext fun ax => Fin.ext (by
      match ax with
      | ⟨0, _⟩ => exact lhs_row _ _
      | ⟨1, _⟩ => exact (lhs_col _ _).trans hk)
  have er : dot_S256x2048_S1024x2048_S256x1024_1_1_0_0_n_n.rhsIdx (ix2 a j) ((contrEquiv1 dot_S256x2048_S1024x2048_S256x1024_1_1_0_0_n_n 2048 rfl rfl).symm k) = ix2 j k :=
    funext fun ax => Fin.ext (by
      match ax with
      | ⟨0, _⟩ => exact rhs_row _ _
      | ⟨1, _⟩ => exact (rhs_col _ _).trans hk)
  rw [el, er]

end Cert.KernelIdeal.Blocked

end
-- ==== Proof.Blocks.lean ====
import proofs.«116452_j52269751992785_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

/-!
  WHERE THE BODY'S LOADS SIT IN THE ARRAYS. Grid point `t` (of 32) is column tile `t / 4` and contraction chunk `t % 4`.
  The window of `x` is the whole 256 × 8192 array at every point; the body loads from it the chunk of columns
  `2048 · (t % 4) …`. The window of `U` at point `t` is the 1024 × 2048 block at rows `1024 · (t / 4) …` and columns
  `2048 · (t % 4) …`. The output window at point `t` is the 256 × 1024 tile of columns `1024 · (t / 4) …`.
-/

namespace Cert.KernelIdeal.Blocked

open Cert.KernelIdeal Cert.KernelIdeal.Gen Idealize.ShloMosaic.ValueIdx

variable {F : FTy → Type} [FloatOps F]
variable (m : (ℓ : Loc nD τ sig) → Buf (Elt F) ℓ)

/-- The block indices of the three windows and the chunk number at every grid point, decided over the grid. -/
theorem idx_facts : ∀ t : Fin cfg0.N,
    win0_0.index t (0 : Fin 2) = 0 ∧ win0_0.index t (1 : Fin 2) = 0
    ∧ win0_1.index t (0 : Fin 2) = t.val / 4 ∧ win0_1.index t (1 : Fin 2) = t.val % 4
    ∧ win0_2.index t (0 : Fin 2) = 0 ∧ win0_2.index t (1 : Fin 2) = t.val / 4
    ∧ (grid0.coords t (1 : Fin 2)).val = t.val % 4 :=
  (by decide +kernel : ∀ t : Fin grid0.N,
    win0_0.index t (0 : Fin 2) = 0 ∧ win0_0.index t (1 : Fin 2) = 0
    ∧ win0_1.index t (0 : Fin 2) = t.val / 4 ∧ win0_1.index t (1 : Fin 2) = t.val % 4
    ∧ win0_2.index t (0 : Fin 2) = 0 ∧ win0_2.index t (1 : Fin 2) = t.val / 4
    ∧ (grid0.coords t (1 : Fin 2)).val = t.val % 4)

/-- The window of `x` at any point, read at `(a, k)`, is the array as the region finds it at `(a, k)`. -/
theorem xwin_apply (c : Dev nD) (t : Fin cfg0.N) (a : Fin 256) (k : Fin 8192) :
    (iblk m c 0 t : Vec F S256x8192 .bf16) (ix2 a k) = (V m c main_v0 : S256x8192.Idx → F .bf16) (ix2 a k) := by
  unfold iblk
  rw [View.read_apply]
  show V m c main_v0 _ = V m c main_v0 _
  congr 1
  funext ax
  apply Fin.ext
  match ax with
  | ⟨0, _⟩ => show win0_0.index t 0 * 256 + 1 * a.val = a.val; rw [(idx_facts t).1]; omega
  | ⟨1, _⟩ => show win0_0.index t 1 * 8192 + 1 * k.val = k.val; rw [(idx_facts t).2.1]; omega

/-- The window of `U` at point `t`, read at `(j, k)`, is `U` at row `1024 · (t / 4) + j`, column `2048 · (t % 4) + k`. -/
theorem uwin_apply (c : Dev nD) (t : Fin cfg0.N) (j : Fin 1024) (k : Fin 2048) (R K : Fin 8192)
    (hR : R.val = 1024 * (t.val / 4) + j.val) (hK : K.val = 2048 * (t.val % 4) + k.val) :
    (iblk m c 1 t : Vec F S1024x2048 .f32) (ix2 j k) = (V m c main_arg1 : S8192x8192.Idx → F .f32) (ix2 R K) := by
  unfold iblk
  rw [View.read_apply]
  show V m c main_arg1 _ = V m c main_arg1 _
  congr 1
  funext ax
  apply Fin.ext
  match ax with
  | ⟨0, _⟩ => show win0_1.index t 0 * 1024 + 1 * j.val = R.val; rw [(idx_facts t).2.2.1, hR]; omega
  | ⟨1, _⟩ => show win0_1.index t 1 * 2048 + 1 * k.val = K.val; rw [(idx_facts t).2.2.2.1, hK]; omega

/-- The chunk of `x` the body loads at coordinates `i`, read at `(a, k)`: column `2048 · i₁ + k` of the staged array. -/
theorem chunk_apply (i : grid0.Coords) (x0 : Vec F S256x8192 .bf16) (a : Fin 256) (k : Fin 2048) (K : Fin 8192)
    (hK : K.val = 2048 * (i 1).val + k.val) :
    View.ld x0 (Rect.unit (s := S256x8192) (k0_off1 i) S256x2048.size (k0_off1_inb i)) (ix2 a k) = x0 (ix2 a K) := by
  show x0 _ = x0 _
  congr 1
  funext ax
  apply Fin.ext
  match ax with
  | ⟨0, _⟩ => show k0_off1 i 0 + 1 * a.val = a.val; rw [k0_off1_eq]; show 0 + 1 * a.val = a.val; omega
  | ⟨1, _⟩ => show k0_off1 i 1 + 1 * k.val = K.val; rw [k0_off1_eq, hK]; show 2048 * (i 1).val + 1 * k.val = _; omega

end Cert.KernelIdeal.Blocked

end
-- ==== Proof.LibBlockSum.lean ====
/-
  GENERAL LEMMAS (Mathlib only; no program is imported).

  A sum over the first `n * b` naturals taken block by block: the index is `b * s + k` with `s < n` the block and
  `k < b` the place inside it. Only commutativity and associativity of `+` are used, so the law holds in every
  commutative additive monoid, the extended reals (with their two infinities) included. It is what joins a
  contraction accumulated in `n` blocks of `b` places with the same contraction taken whole.
-/
import Mathlib.Algebra.BigOperators.Fin

namespace Cert.BlockSum

open Finset

/-- `∑_{s < n} ∑_{k < b} f (b·s + k) = ∑_{K < n·b} f K`: by induction on the number of blocks, the last block split off
    the end of the range. -/
theorem sum_range_blocks {M : Type*} [AddCommMonoid M] (b : ℕ) (f : ℕ → M) :
    ∀ n : ℕ, ∑ s ∈ range n, ∑ k ∈ range b, f (b * s + k) = ∑ K ∈ range (n * b), f K
  | 0 => by simp
  | n + 1 => by
    rw [sum_range_succ, sum_range_blocks b f n, Nat.succ_mul, sum_range_add, Nat.mul_comm b n]

/-- A sum over `Fin n` of a function of the index's value is the sum over the first `n` naturals. -/
theorem sum_fin_eq_range {M : Type*} [AddCommMonoid M] (n : ℕ) (f : ℕ → M) :
    ∑ k : Fin n, f k.val = ∑ k ∈ range n, f k :=
  Fin.sum_univ_eq_sum_range f n

end Cert.BlockSum
-- ==== Proof.BlockedDot.lean ====
/-
  THE SPECIFICATION, and the one law the certificate needs.

  Both programs compute the matrix product of `x` (256 × 8192) with the transpose of `U` (8192 × 8192): entry `(b, i)` is
  `∑_{j < 8192} x[b, j] · U[i, j]`. The reference takes the contraction whole. The kernel cuts the output's columns into
  8 tiles of 1024 rows of `U` and the contraction into 4 chunks of 2048 places; at grid point `n` (column tile `n / 4`,
  chunk `n % 4`) it adds the chunk's partial product into the tile, which starts at zero. The two agree because a sum
  over `4 · 2048` places taken in 4 blocks of 2048 is the whole sum — commutativity and associativity of `+` only, so the
  law holds on the extended reals with no finiteness assumption.
-/
import Idealize.ShloMosaic.PureOps.Ideal
import Idealize.ShloMosaic.Lib.ValueIdx
import proofs.«116452_j52269751992785_2_alg».proof.Proof.LibBlockSum

noncomputable section

open scoped BigOperators

namespace Cert.BlockedDot

open Idealize.ShloMosaic Idealize.ShloMosaic.ValueIdx Finset

/-- The arrays' index types, at their literal extents. -/
abbrev XIdx : Type := (⟨2, ![256, 8192]⟩ : Shape).Idx
abbrev UIdx : Type := (⟨2, ![8192, 8192]⟩ : Shape).Idx
abbrev TileIdx : Type := (⟨2, ![256, 1024]⟩ : Shape).Idx

/-- Entry `(b, i)` of the result: `∑_j x[b, j] · U[i, j]`. -/
def dotAt (x : XIdx → EReal) (u : UIdx → EReal) (b : Fin 256) (i : Fin 8192) : EReal :=
  ∑ k : Fin 8192, x (ix2 b k) * u (ix2 i k)

/-- THE RESULT as one function of the two argument arrays. -/
def dotNT (x : XIdx → EReal) (u : UIdx → EReal) : XIdx → EReal :=
  fun i => dotAt x u (i 0) (i 1)

/-- The product at contraction place `K`, for row `b` of `x` and row `i` of `U`, as a function of every natural
    (zero past the contraction's extent, where it is never read). -/
def term (x : XIdx → EReal) (u : UIdx → EReal) (b : Fin 256) (i : Fin 8192) (K : ℕ) : EReal :=
  if h : K < 8192 then x (ix2 b ⟨K, h⟩) * u (ix2 i ⟨K, h⟩) else 0

theorem term_of_lt (x : XIdx → EReal) (u : UIdx → EReal) (b : Fin 256) (i : Fin 8192) (K : ℕ) (h : K < 8192) :
    term x u b i K = x (ix2 b ⟨K, h⟩) * u (ix2 i ⟨K, h⟩) := dif_pos h

/-- The whole contraction as a sum over the first 8192 naturals. -/
theorem dotAt_eq_range (x : XIdx → EReal) (u : UIdx → EReal) (b : Fin 256) (i : Fin 8192) :
    dotAt x u b i = ∑ K ∈ range 8192, term x u b i K := by
  rw [← Cert.BlockSum.sum_fin_eq_range]
  exact Finset.sum_congr rfl fun k _ => (term_of_lt x u b i k.val k.isLt).symm

/-- The row of `U` that column `j` of the tile of grid point `n` is computed from: row `1024 · (n / 4) + j`
    (the tile number taken below 8 so that the row exists for every natural `n`). -/
def rowOf (n : ℕ) (j : Fin 1024) : Fin 8192 := ⟨1024 * ((n / 4) % 8) + j.val, by have := j.isLt; omega⟩

/-- WHAT GRID POINT `n` ADDS to entry `(a, j)` of its output tile: the partial product over chunk `n % 4` of the
    contraction, places `2048 · (n % 4) … 2048 · (n % 4) + 2047`. -/
def addendAt (x : XIdx → EReal) (u : UIdx → EReal) (n : ℕ) (a : Fin 256) (j : Fin 1024) : EReal :=
  ∑ k : Fin 2048, term x u a (rowOf n j) (2048 * (n % 4) + k.val)

/-- THE LAW. The four points `4q, 4q + 1, 4q + 2, 4q + 3` of one column tile add, between them, the whole contraction:
    the sum in 4 blocks of 2048 is the sum over all 8192 places. -/
theorem sum_addends (x : XIdx → EReal) (u : UIdx → EReal) (q : ℕ) (a : Fin 256) (j : Fin 1024) :
    ∑ s ∈ range 4, addendAt x u (4 * q + s) a j = dotAt x u a (rowOf (4 * q) j) := by
  rw [dotAt_eq_range, show (8192 : ℕ) = 4 * 2048 from rfl, ← Cert.BlockSum.sum_range_blocks 2048 _ 4]
  refine Finset.sum_congr rfl fun s hs => ?_
  have hs4 : s < 4 := Finset.mem_range.mp hs
  unfold addendAt
  rw [Cert.BlockSum.sum_fin_eq_range 2048 (fun k => term x u a (rowOf (4 * q + s) j) (2048 * ((4 * q + s) % 4) + k))]
  have e1 : (4 * q + s) % 4 = s := by omega
  have e2 : rowOf (4 * q + s) j = rowOf (4 * q) j := by
    apply Fin.ext
    show 1024 * (((4 * q + s) / 4) % 8) + j.val = 1024 * (((4 * q) / 4) % 8) + j.val
    have : (4 * q + s) / 4 = (4 * q) / 4 := by omega
    rw [this]
  rw [e1, e2]

end Cert.BlockedDot

end
-- ==== Proof.Running.lean ====
/-
  THE RUNNING CONTENTS OF AN OUTPUT TILE, at the ideal values.

  After grid point `n` (column tile `n / 4`, chunk `n % 4`) the tile's staging buffer holds, at entry `(a, j)`, the sum of
  the partial products of chunks `0 … n % 4`: the first point of a tile stores `0 + ` its partial product, each later
  point adds its own to what the point before left. By induction on the point, never by listing the grid. At the
  tile's last point (`n % 4 = 3`), where the tile is written back, the four partial products are the whole contraction.
-/
import proofs.«116452_j52269751992785_2_alg».proof.Proof.Pieces
import proofs.«116452_j52269751992785_2_alg».proof.Proof.PayloadAt
import proofs.«116452_j52269751992785_2_alg».proof.Proof.Blocks
import proofs.«116452_j52269751992785_2_alg».proof.Proof.BlockedDot

noncomputable section

open scoped BigOperators
open Idealize.ShloMosaic Idealize.ShloMosaic.TcCoe Idealize.SL.Sem Idealize.ShloMosaic.ValueIdx
open Idealize.ShloMosaic.Pipeline (Dat)

namespace Cert.KernelIdeal.Blocked

open Cert.KernelIdeal Cert.KernelIdeal.Gen Cert.BlockedDot

variable (m : (ℓ : Loc nD τ sig) → Buf (Elt Ideal) ℓ)

/-- `x` (in its short float format, the same extended reals) and `U` as the region finds them. -/
abbrev X (c : Dev nD) : XIdx → EReal := V m c main_v0
abbrev U (c : Dev nD) : UIdx → EReal := V m c main_arg1

/-- ONE STEP of the body on any loaded arrays that read `xf` and `uf` where the point's windows say: the stored tile
    at `(a, j)` is what the tile held plus the point's partial product. -/
theorem step_apply (i : grid0.Coords) (x0 : Vec Ideal S256x8192 .bf16) (x1 : Vec Ideal S1024x2048 .f32)
    (acc : Vec Ideal S256x1024 .f32) (a : Fin 256) (j : Fin 1024) (xf : XIdx → EReal) (uf : UIdx → EReal) (n : ℕ)
    (hi : (i 1).val = n % 4) (hx : ∀ (a : Fin 256) (K : Fin 8192), x0 (ix2 a K) = xf (ix2 a K))
    (hu : ∀ (j : Fin 1024) (k : Fin 2048) (hK : 2048 * (n % 4) + k.val < 8192),
      x1 (ix2 j k) = uf (ix2 (rowOf n j) ⟨2048 * (n % 4) + k.val, hK⟩)) :
    k0_pay2 (F := Ideal) (View.ld x0 (Rect.unit (s := S256x8192) (k0_off1 i) S256x2048.size (k0_off1_inb i))) x1 acc (ix2 a j)
      = acc (ix2 a j) + addendAt xf uf n a j := by
  rw [stored_apply]
  congr 1
  unfold addendAt
  refine Finset.sum_congr rfl fun k _ => ?_
  have hK : 2048 * (n % 4) + k.val < 8192 := by have := k.isLt; omega
  rw [term_of_lt _ _ _ _ _ hK, chunk_apply i x0 a k ⟨2048 * (n % 4) + k.val, hK⟩ (by rw [hi]), hx, hu j k hK]

/-- The step at grid point `t`, on the point's own windows of `x` and `U`. -/
theorem step_at (c : Dev nD) (t : Fin cfg0.N) (acc : Vec Ideal S256x1024 .f32) (a : Fin 256) (j : Fin 1024) :
    k0_pay2 (F := Ideal) (View.ld (iblk m c 0 t) (Rect.unit (s := S256x8192) (k0_off1 (grid0.coords t)) S256x2048.size
        (k0_off1_inb (grid0.coords t)))) (iblk m c 1 t) acc (ix2 a j)
      = acc (ix2 a j) + addendAt (X m c) (U m c) t.val a j :=
  have hN : t.val < 32 := lt_of_lt_of_eq t.isLt (show cfg0.N = 32 from N_0)
  step_apply (grid0.coords t) (iblk m c 0 t) (iblk m c 1 t) acc a j (X m c) (U m c) t.val (idx_facts t).2.2.2.2.2.2
    (fun a K => xwin_apply m c t a K)
    (fun j k hK => uwin_apply m c t j k (rowOf t.val j) ⟨2048 * (t.val % 4) + k.val, hK⟩
      (by show 1024 * ((t.val / 4) % 8) + j.val = _; omega) rfl)

/-- The FIRST point of a tile leaves its own partial product (the tile is zeroed first). -/
theorem point_first (c : Dev nD) (t : Fin cfg0.N) (h0 : t.val % 4 = 0) (a : Fin 256) (j : Fin 1024) :
    outsAt0 m c t.val t.isLt (ix2 a j) = addendAt (X m c) (U m c) t.val a j := by
  rw [outsAt0_A m c t h0,
    out_A c (grid0.coords t) (ms0_0 t) (hs0_0 t) (ms0_1 t) (hs0_1 t) (ms0_2 t) (hs0_2 t) ((hcond0_0 t).mpr h0)
      (iblk m c 0 t) (iblk m c 1 t)]
  refine (step_at m c t (k0_pay1 (F := Ideal)) a j).trans ?_
  rw [zeroTile_apply, zero_add]

/-- A LATER point adds its partial product to what the point before left. -/
theorem point_later (c : Dev nD) (t : Fin cfg0.N) (h0 : ¬t.val % 4 = 0) (a : Fin 256) (j : Fin 1024) :
    outsAt0 m c t.val t.isLt (ix2 a j)
      = outsAt0 m c (t.val - 1) (Nat.lt_of_le_of_lt (Nat.sub_le _ _) t.isLt) (ix2 a j) + addendAt (X m c) (U m c) t.val a j := by
  rw [outsAt0_B m c t h0,
    out_B c (grid0.coords t) (ms0_0 t) (hs0_0 t) (ms0_1 t) (hs0_1 t) (ms0_2 t) (hs0_2 t) (fun h => h0 ((hcond0_0 t).mp h))
      (iblk m c 0 t) (iblk m c 1 t) (outsAt0 m c (t.val - 1) (Nat.lt_of_le_of_lt (Nat.sub_le _ _) t.isLt))]
  exact step_at m c t _ a j

/-- THE RUNNING SUM: after point `n` the tile holds the partial products of chunks `0 … n % 4` of its column tile. -/
theorem running (c : Dev nD) : ∀ (n : ℕ) (h : n < cfg0.N) (a : Fin 256) (j : Fin 1024),
    outsAt0 m c n h (ix2 a j) = ∑ s ∈ Finset.range (n % 4 + 1), addendAt (X m c) (U m c) (4 * (n / 4) + s) a j
  | 0, h, a, j => by
    refine (point_first m c ⟨0, h⟩ rfl a j).trans ?_
    show addendAt (X m c) (U m c) 0 a j = ∑ s ∈ Finset.range 1, addendAt (X m c) (U m c) (4 * (0 / 4) + s) a j
    rw [Finset.sum_range_one]
  | n + 1, h, a, j => by
    by_cases h0 : (n + 1) % 4 = 0
    · refine (point_first m c ⟨n + 1, h⟩ h0 a j).trans ?_
      show addendAt (X m c) (U m c) (n + 1) a j = _
      rw [h0, Nat.zero_add, Finset.sum_range_one]
      congr 1
      omega
    · refine (point_later m c ⟨n + 1, h⟩ h0 a j).trans ?_
      show outsAt0 m c n (Nat.lt_of_succ_lt h) (ix2 a j) + addendAt (X m c) (U m c) (n + 1) a j = _
      rw [running c n (Nat.lt_of_succ_lt h) a j]
      have e1 : (n + 1) % 4 = n % 4 + 1 := by omega
      have e2 : (n + 1) / 4 = n / 4 := by omega
      rw [e1, e2, Finset.sum_range_succ _ (n % 4 + 1)]
      congr 2
      omega

/-- AT THE TILE'S LAST POINT (`t % 4 = 3`, where it is written back) the tile holds the whole contraction: entry
    `(a, j)` is entry `(a, 1024 · (t / 4) + j)` of the product. -/
theorem tile_done (c : Dev nD) (t : Fin cfg0.N) (h3 : t.val % 4 = 3) (a : Fin 256) (j : Fin 1024) (R : Fin 8192)
    (hR : R.val = 1024 * (t.val / 4) + j.val) :
    outsAt0 m c t.val t.isLt (ix2 a j) = dotAt (X m c) (U m c) a R := by
  have hN : t.val < 32 := lt_of_lt_of_eq t.isLt (show cfg0.N = 32 from N_0)
  have h4 : t.val % 4 + 1 = 4 := by omega
  rw [running m c t.val t.isLt a j, h4, sum_addends]
  congr 1
  apply Fin.ext
  show 1024 * (((4 * (t.val / 4)) / 4) % 8) + j.val = R.val
  omega

end Cert.KernelIdeal.Blocked

end
-- ==== Proof.Region.lean ====
/-
  FROM TILES TO THE ARRAY, and around the region.

  The output window's tile at grid point `t` is columns `1024 · (t / 4) …` of the 256 × 8192 result; it is written back
  at the last point of each column tile (`t % 4 = 3`), holding there the whole contraction (Running.lean). The eight
  written tiles cover the array — column `i₁` lies in tile `i₁ / 1024` — so the array ends at the product. Before
  the region the host only changes `x`'s float format (the identity on extended reals); after it the result gets a
  trailing axis of extent one.
-/
import proofs.«116452_j52269751992785_2_alg».proof.Proof.Running

noncomputable section

open scoped BigOperators
open Idealize.ShloMosaic Idealize.ShloMosaic.TcCoe Idealize.SL.Sem Idealize.ShloMosaic.ValueIdx
open Idealize.ShloMosaic.Pipeline (Dat)

namespace Cert.KernelIdeal.Blocked

open Cert.KernelIdeal Cert.KernelIdeal.Gen Cert.BlockedDot

variable (m : (ℓ : Loc nD τ sig) → Buf (Elt Ideal) ℓ) (ρ : Dev nD → PrngReg)

/-- WHAT A WRITING POINT WRITES BACK is its tile of the product of the arrays as the region finds them. -/
theorem flushed_eq (c : Dev nD) (t : Fin cfg0.N) (hf : (cfg0.win 2).flush t = true) :
    (dats m 0 c).flushed 2 t = ((cfg0.win 2).blk t).view.read (Elt Ideal) (dotNT (X m c) (U m c)) := by
  have h3 : t.val % 4 = 3 := (flush0_2 t).mp hf
  have hN : t.val < 32 := lt_of_lt_of_eq t.isLt (show cfg0.N = 32 from N_0)
  show (cfg0.win 2).cut (grid0.coords t) ((dats m 0 c).after 2 t) = _
  rw [after0_2]
  funext y
  obtain ⟨a, j, rfl⟩ : ∃ (a : Fin 256) (j : Fin 1024), y = ix2 a j := ⟨y 0, y 1, eq_ix2 (n0 := 256) (n1 := 1024) y⟩
  show outsAt0 m c t.val t.isLt (ix2 a j) = dotNT (X m c) (U m c) (((cfg0.win 2).blk t).view.emb (ix2 a j))
  rw [tile_done m c t h3 a j ⟨1024 * (t.val / 4) + j.val, by have := j.isLt; omega⟩ rfl]
  unfold dotNT
  congr 1 <;> apply Fin.ext
  · show a.val = win0_2.index t 0 * 256 + 1 * a.val
    rw [(idx_facts t).2.2.2.2.1]; omega
  · show 1024 * (t.val / 4) + j.val = win0_2.index t 1 * 1024 + 1 * j.val
    rw [(idx_facts t).2.2.2.2.2.1]; omega

/-- An index of the result array is in point `t`'s tile iff each coordinate is in the tile's range on its axis. -/
theorem mem_tile (t : Fin cfg0.N) (i : S256x8192.Idx) :
    i ∈ ((cfg0.win 2).blk t).view.set ↔ ∀ a : Fin 2, win0_2.index t a * S256x1024.size a ≤ (i a).val
      ∧ (i a).val < win0_2.index t a * S256x1024.size a + S256x1024.size a := by
  show i ∈ ((View.whole main_v1).slice (win0_2.rect t)).set ↔ _
  rw [View.set_slice_whole, Rect.mem_set_unit]
  exact Iff.rfl

/-- THE ARRAY AFTER THE REGION is the product: column `i₁` is written by the last point of tile `i₁ / 1024`. -/
theorem final (c : Dev nD) : (dats m 0 c).arrAt 2 cfg0.N = dotNT (X m c) (U m c) :=
  (dats m 0 c).arrAt_eq_of_cover 2 (dotNT (X m c) (U m c)) (flushed_eq m c) fun i => by
    have h0 : (i 0).val < 256 := (i 0).isLt
    have h1 : (i 1).val < 8192 := (i 1).isLt
    have hlt : 4 * ((i 1).val / 1024) + 3 < cfg0.N := by rw [show cfg0.N = 32 from N_0]; omega
    refine ⟨⟨4 * ((i 1).val / 1024) + 3, hlt⟩, (flush0_2 _).mpr (by show (4 * ((i 1).val / 1024) + 3) % 4 = 3; omega), ?_⟩
    rw [mem_tile]
    obtain ⟨-, -, -, -, e0, e1, -⟩ := idx_facts ⟨4 * ((i 1).val / 1024) + 3, hlt⟩
    intro ax
    match ax with
    | ⟨0, _⟩ =>
      show win0_2.index ⟨4 * ((i 1).val / 1024) + 3, hlt⟩ 0 * 256 ≤ (i 0).val
        ∧ (i 0).val < win0_2.index ⟨4 * ((i 1).val / 1024) + 3, hlt⟩ 0 * 256 + 256
      rw [e0]; omega
    | ⟨1, _⟩ =>
      show win0_2.index ⟨4 * ((i 1).val / 1024) + 3, hlt⟩ 1 * 1024 ≤ (i 1).val
        ∧ (i 1).val < win0_2.index ⟨4 * ((i 1).val / 1024) + 3, hlt⟩ 1 * 1024 + 1024
      rw [e1]
      show (4 * ((i 1).val / 1024) + 3) / 4 * 1024 ≤ (i 1).val ∧ (i 1).val < (4 * ((i 1).val / 1024) + 3) / 4 * 1024 + 1024
      omega

end Cert.KernelIdeal.Blocked

end
-- ==== Proof.Around.lean ====
/-
  THE KERNEL'S RUN, READ. Around the region the host only changes `x`'s float format before it (the identity on
  extended reals) and gives the result a trailing axis of extent one after it. So the program ends with its result at
  the product `x · Uᵀ` of its two arguments, with that trailing axis, and the arguments unchanged.
-/
import proofs.«116452_j52269751992785_2_alg».proof.Proof.Region
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Blocked

open Cert.KernelIdeal Cert.KernelIdeal.Gen Cert.BlockedDot

variable (m : (ℓ : Loc nD τ sig) → Buf (Elt Ideal) ℓ) (ρ : Dev nD → PrngReg)

/-- The region finds `x` in the short float format: the same extended reals. -/
theorem X_eq (c : Dev nD) : X m c = (m ((c : Thread nD τ).loc main_arg0) : XIdx → EReal) := by
  show StableHlo.after hostOps0 (fun b => m (c, b)) (Proc.devRef .tc main_v0) = _
  after_results
  rfl

/-- The region finds `U` as launched. -/
theorem U_eq (c : Dev nD) : U m c = (m ((c : Thread nD τ).loc main_arg1) : UIdx → EReal) := V_main_arg1 m c

/-- The program's result after the host line that follows the region. -/
theorem result_eq (c : Dev nD) :
    Pipeline.afterTail₀ cfgs (dats m) 0 (V0 m) [hostOps1] c main_v2
      = broadcastInDim S256x8192x1 ![0, 1] bcast_S256x8192_S256x8192x1_0_1 (dotNT (X m c) (U m c)) := by
  unfold Pipeline.afterTail₀
  show StableHlo.after hostOps1 _ (Proc.devRef .tc main_v2) = _
  after_results
  exact congrArg _ ((Pipeline.withArrays_arr spec0 launch0.win.arr_inj c _ _ 2).trans (final m c))

/-- THE RUN, READ: every weakly fair execution of the program terminates with its result at the product of its two
    arguments (with the trailing unit axis) and the arguments unchanged. -/
theorem run : θ_run defs (onTc (τ := τ) (main (F := Ideal))) ⟨m, fun _ => 0, ρ⟩ fun r => ∀ c : Dev nD,
      r.2.mem ((c.tc : Thread nD τ).loc main_v2)
        = broadcastInDim S256x8192x1 ![0, 1] bcast_S256x8192_S256x8192x1_0_1
            (dotNT (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 (by decide) (by decide))).trans
          ((result_eq m c).trans (by rw [X_eq, U_eq])),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.Blocked

end
-- ==== Proof.RefBridge.lean ====
/-
  THE REFERENCE IS THE SAME PRODUCT. The reference contracts the last axis of `x` with the last axis of `U` in one
  host operation; at the ideal values its entry `(b, i)` is `∑_j x[b, j] · U[i, j]`, the specification's function.
-/
import proofs.«116452_j52269751992785_2_alg».proof.Proof.Gen.ReferenceIdeal.Read
import proofs.«116452_j52269751992785_2_alg».proof.Proof.BlockedDot

noncomputable section

open scoped BigOperators
open Idealize.ShloMosaic Idealize.ShloMosaic.ValueIdx

namespace Cert.ReferenceIdeal.Bridge

open Cert.ReferenceIdeal Cert.ReferenceIdeal.Gen Cert.BlockedDot

/-- The host's contraction of the two arguments is the product `x · Uᵀ`, entry by entry. -/
theorem dot_eq (x0 : XIdx → EReal) (x1 : UIdx → EReal) :
    Host.dotGeneral (F := Ideal) (φ₁ := .f32) (φ₂ := .f32) dot_S256x8192_S8192x8192_S256x8192_1_1_0_0_n_n none x0 x1 = dotNT x0 x1 := by
  funext i
  show Cert.ReferenceIdeal.Read.val_main_v0 (F := Ideal) x0 x1 i = _
  rw [Cert.ReferenceIdeal.Read.val_main_v0_apply]
  unfold dotNT dotAt
  refine Finset.sum_congr rfl fun k _ => ?_
  have el : Cert.ReferenceIdeal.Read.lidx_main_v0 i k = ix2 (i 0) k :=
    funext fun ax => by match ax with | ⟨0, _⟩ => rfl | ⟨1, _⟩ => rfl
  have er : Cert.ReferenceIdeal.Read.ridx_main_v0 i k = ix2 (i 1) k :=
    funext fun ax => by match ax with | ⟨0, _⟩ => rfl | ⟨1, _⟩ => rfl
  rw [el, er]
  rfl

end Cert.ReferenceIdeal.Bridge

end
-- ==== Proof.lean ====
/-
  THE CERTIFICATE: a 256 × 8192 batch `x` times the transpose of an 8192 × 8192 matrix `U`.

  The kernel tiles the output's columns (8 tiles of 1024 rows of `U`) and the contraction (4 chunks of 2048 places): at
  each grid point it adds, on the matrix unit, one chunk's partial product into the output tile, which it zeroes at the
  tile's first point and writes back after its last. The reference contracts the whole axis in one host operation.
  At the ideal values — floats extended reals, a change of float format the identity — both results are
  `∑_{j < 8192} x[b, j] · U[i, j]` at every entry `(b, i)`: the kernel's is that sum taken in 4 blocks of 2048, and a sum
  may be regrouped by commutativity and associativity of `+` alone, which hold on the extended reals with their two
  infinities. No finiteness of the inputs is used. Both programs then give the result a trailing axis of extent one.

  The modules: BlockedDot (the specification and the regrouping law), Pieces (what each case of the body leaves in the
  tile's buffer, as the body's stored term), PayloadAt (that term at an entry), Blocks (where the point's windows and the
  loaded chunk sit in the arrays), Running (the tile's running sum, by induction on the point), Region (the written
  tiles cover the array), Around (the host lines before and after; the run read), RefBridge (the reference is the
  same function).
-/
import proofs.«116452_j52269751992785_2_alg».proof.Defs
import proofs.«116452_j52269751992785_2_alg».proof.Proof.Gen.Kernel
import proofs.«116452_j52269751992785_2_alg».proof.Proof.Gen.Kernel.Skeleton
import proofs.«116452_j52269751992785_2_alg».proof.Proof.Gen.Kernel.Launch
import proofs.«116452_j52269751992785_2_alg».proof.Proof.Gen.Kernel.Points
import proofs.«116452_j52269751992785_2_alg».proof.Proof.Gen.Kernel.Frame
import proofs.«116452_j52269751992785_2_alg».proof.Proof.Gen.KernelIdeal
import proofs.«116452_j52269751992785_2_alg».proof.Proof.Gen.KernelIdeal.Skeleton
import proofs.«116452_j52269751992785_2_alg».proof.Proof.Gen.KernelIdeal.Launch
import proofs.«116452_j52269751992785_2_alg».proof.Proof.Gen.KernelIdeal.Points
import proofs.«116452_j52269751992785_2_alg».proof.Proof.Gen.KernelIdeal.Frame
import proofs.«116452_j52269751992785_2_alg».proof.Proof.Gen.ReferenceIdeal
import proofs.«116452_j52269751992785_2_alg».proof.Proof.Gen.ReferenceIdeal.Run
import proofs.«116452_j52269751992785_2_alg».proof.Proof.Gen.ReferenceIdeal.Read
import proofs.«116452_j52269751992785_2_alg».proof.Proof.Gen.Pre_finite_inputs
import proofs.«116452_j52269751992785_2_alg».proof.Proof.Around
import proofs.«116452_j52269751992785_2_alg».proof.Proof.RefBridge
import Idealize.ShloMosaic.Adequacy
import Idealize.ShloMosaic.Init

noncomputable section

namespace Cert.Proof

open Idealize.ShloMosaic Idealize.SL.Sem Cert.Kernel

/-- The word-level kernel runs and leaves its arguments as launched. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal values: nothing was rewritten. -/
theorem preserves : Cert.preserves_Kernel_KernelIdeal := trivial

/-- From memories that agree on `x` and `U` both programs end with the product `x · Uᵀ` (with the trailing unit axis):
    the kernel's blocked accumulation and the reference's whole contraction are one function of the arguments. -/
theorem algebraic : Cert.algebraic_KernelIdeal_ReferenceIdeal := by
  intro m ρ m' ρ' _ hagree
  refine ⟨_, Cert.KernelIdeal.Blocked.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Bridge.dot_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
